-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel

variable [Facts]

def fn {F : FTy → Type} [FloatOps F] (main_arg0 : FVec F S16x4096 .f32) (main_arg1 : FVec F S16x4096 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  main_v8
-- ==== Kernel.lean ====
abbrev S16x4096 : Shape := ⟨2, ![16, 4096]⟩
abbrev S16x4096x1 : Shape := ⟨3, ![16, 4096, 1]⟩
abbrev S16x1x4096 : Shape := ⟨3, ![16, 1, 4096]⟩
abbrev S16x4096x4096 : Shape := ⟨3, ![16, 4096, 4096]⟩
abbrev S1x512x1 : Shape := ⟨3, ![1, 512, 1]⟩
abbrev S1x1x4096 : Shape := ⟨3, ![1, 1, 4096]⟩
abbrev S1x512x4096 : Shape := ⟨3, ![1, 512, 4096]⟩
abbrev S512x4096 : Shape := ⟨2, ![512, 4096]⟩
abbrev S512x1 : Shape := ⟨2, ![512, 1]⟩
abbrev S1x1x640 : Shape := ⟨3, ![1, 1, 640]⟩
abbrev S640 : Shape := ⟨1, ![640]⟩
abbrev S1x640 : Shape := ⟨2, ![1, 640]⟩
abbrev S512x640 : Shape := ⟨2, ![512, 640]⟩
abbrev S1x512x640 : Shape := ⟨3, ![1, 512, 640]⟩
abbrev S1x1x512 : Shape := ⟨3, ![1, 1, 512]⟩
abbrev S512 : Shape := ⟨1, ![512]⟩
abbrev S1x512 : Shape := ⟨2, ![1, 512]⟩
abbrev S512x512 : Shape := ⟨2, ![512, 512]⟩
abbrev S1x512x512 : Shape := ⟨3, ![1, 512, 512]⟩

abbrev nBuf : Space → Nat
  | .hbm => 5
  | .vmem => 6
  | .smem => 0
  | _ => 0

abbrev bufTy : (tb : Table) → Fin (tcTables nBuf tb) → BufTy
  | .hbm, ⟨0, _⟩ => ⟨S16x4096, .f32⟩
  | .hbm, ⟨1, _⟩ => ⟨S16x4096, .f32⟩
  | .hbm, ⟨2, _⟩ => ⟨S16x4096x1, .f32⟩
  | .hbm, ⟨3, _⟩ => ⟨S16x1x4096, .f32⟩
  | .hbm, ⟨4, _⟩ => ⟨S16x4096x4096, .f32⟩
  | .local _ .vmem, ⟨0, _⟩ => ⟨S1x512x1, .f32⟩
  | .local _ .vmem, ⟨1, _⟩ => ⟨S1x512x1, .f32⟩
  | .local _ .vmem, ⟨2, _⟩ => ⟨S1x1x4096, .f32⟩
  | .local _ .vmem, ⟨3, _⟩ => ⟨S1x1x4096, .f32⟩
  | .local _ .vmem, ⟨4, _⟩ => ⟨S1x512x4096, .f32⟩
  | .local _ .vmem, ⟨5, _⟩ => ⟨S1x512x4096, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c512_i32 : BitVec 32 := 512#32
  let v0 : BitVec 32 := Scalar.muli arg1 c512_i32
  let c640_i32 : BitVec 32 := 640#32
  let v7 : BitVec 32 := Scalar.addi v0 c640_i32
  let c4096_i32 : BitVec 32 := 4096#32
  let v8 : BitVec 1 := Scalar.cmpi .sle v7 c4096_i32
  let v9 : BitVec 32 := Scalar.extui v8
  let c0_i32 : BitVec 32 := 0#32
  let v10 : BitVec 1 := Scalar.cmpi .ne v9 c0_i32
  v10

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 3 → Nat :=
  let c0_8 : Index := 0#32
  let c0_9 : Index := 0#32
  let arg1 : BitVec 32 := BitVec.ofNat 32 (i 1).val
  let c512_i32 : BitVec 32 := 512#32
  let v0 : BitVec 32 := Scalar.muli arg1 c512_i32
  let v15 : BitVec 32 := v0
  let v16 : Index := Scalar.indexCast v15
  ![0, 0, v16.toNat]
def k0_off2 (i : grid0.Coords) : Fin 3 → Nat :=
  let c0_12 : Index := 0#32
  let c0_13 : Index := 0#32
  let arg1 : BitVec 32 := BitVec.ofNat 32 (i 1).val
  let c512_i32 : BitVec 32 := 512#32
  let v0 : BitVec 32 := Scalar.muli arg1 c512_i32
  let v15 : BitVec 32 := v0
  let v37 : Index := Scalar.indexCast v15
  ![0, 0, v37.toNat]
def k0_cond2 (i : grid0.Coords) : BitVec 1 :=
  let arg1 : BitVec 32 := BitVec.ofNat 32 (i 1).val
  let c512_i32 : BitVec 32 := 512#32
  let v0 : BitVec 32 := Scalar.muli arg1 c512_i32
  let c640_i32_5 : BitVec 32 := 640#32
  let v11 : BitVec 32 := Scalar.addi v0 c640_i32_5
  let c4096_i32_6 : BitVec 32 := 4096#32
  let v12 : BitVec 1 := Scalar.cmpi .sgt v11 c4096_i32_6
  let v13 : BitVec 32 := Scalar.extui v12
  let c0_i32_7 : BitVec 32 := 0#32
  let v14 : BitVec 1 := Scalar.cmpi .ne v13 c0_i32_7
  v14

def k0_mult2 (i : grid0.Coords) : BitVec 32 :=
  let arg1 : BitVec 32 := BitVec.ofNat 32 (i 1).val
  let c512_i32 : BitVec 32 := 512#32
  let v0 : BitVec 32 := Scalar.muli arg1 c512_i32
  v0
def k0_off3 (i : grid0.Coords) : Fin 3 → Nat :=
  let c0_8 : Index := 0#32
  let c0_9 : Index := 0#32
  let arg1 : BitVec 32 := BitVec.ofNat 32 (i 1).val
  let c512_i32 : BitVec 32 := 512#32
  let v0 : BitVec 32 := Scalar.muli arg1 c512_i32
  let v15 : BitVec 32 := v0
  let v16 : Index := Scalar.indexCast v15
  ![0, 0, v16.toNat]
def k0_off4 (i : grid0.Coords) : Fin 3 → Nat :=
  let c0_12 : Index := 0#32
  let c0_13 : Index := 0#32
  let arg1 : BitVec 32 := BitVec.ofNat 32 (i 1).val
  let c512_i32 : BitVec 32 := 512#32
  let v0 : BitVec 32 := Scalar.muli arg1 c512_i32
  let v15 : BitVec 32 := v0
  let v37 : Index := Scalar.indexCast v15
  ![0, 0, v37.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x4096_S16x4096x1 : S16x4096.ShapeCasts S16x4096x1
  shapeCasts_S16x4096_S16x1x4096 : S16x4096.ShapeCasts S16x1x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  h_S1x1x640 : 0 < S1x1x640.numel
  shapeCasts_S1x1x640_S640 : S1x1x640.ShapeCasts S640
  shapeCasts_S640_S1x640 : S640.ShapeCasts S1x640
  broadcasts_S512x1_S512x640 : S512x1.Broadcasts S512x640
  broadcasts_S1x640_S512x640 : S1x640.Broadcasts S512x640
  iota_S512x640_d0_w32 : S512x640.Iotas .tc 32 [0]
  iota_S512x640_d1_w32 : S512x640.Iotas .tc 32 [1]
  h_S1x512x640 : 0 < S1x512x640.numel
  shapeCasts_S1x512x640_S512x640 : S1x512x640.ShapeCasts S512x640
  shapeCasts_S512x640_S1x512x640 : S512x640.ShapeCasts S1x512x640
  h_S1x1x512 : 0 < S1x1x512.numel
  shapeCasts_S1x1x512_S512 : S1x1x512.ShapeCasts S512
  shapeCasts_S512_S1x512 : S512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  h_S1x512x512 : 0 < S1x512x512.numel
  shapeCasts_S1x512x512_S512x512 : S1x512x512.ShapeCasts S512x512
  shapeCasts_S512x512_S1x512x512 : S512x512.ShapeCasts S1x512x512
  hrank0 : 0 < grid0.rank
  k0_mult1_dvd : ∀ i : grid0.Coords, ∀ (k0_h1 : k0_cond1 i = 1#1), 128 ∣ (k0_mult1 i).toNat
  k0_off1_inb : ∀ i : grid0.Coords, ∀ (k0_h1 : k0_cond1 i = 1#1), ∀ a, (k0_off1 i) a + S1x1x640.size a ≤ S1x1x4096.size a
  k0_off2_inb : ∀ i : grid0.Coords, ∀ (k0_h1 : k0_cond1 i = 1#1), ∀ a, (k0_off2 i) a + S1x512x640.size a ≤ S1x512x4096.size a
  k0_mult2_dvd : ∀ i : grid0.Coords, ∀ (k0_h2 : k0_cond2 i = 1#1), 128 ∣ (k0_mult2 i).toNat
  k0_off3_inb : ∀ i : grid0.Coords, ∀ (k0_h2 : k0_cond2 i = 1#1), ∀ a, (k0_off3 i) a + S1x1x512.size a ≤ S1x1x4096.size a
  k0_off4_inb : ∀ i : grid0.Coords, ∀ (k0_h2 : k0_cond2 i = 1#1), ∀ a, (k0_off4 i) a + S1x512x512.size a ≤ S1x512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1.size a ≤ S16x4096x1.size a
  hwx0_0 : ∀ i : grid0.Coords, EltTy.bits .f32 = 32 ∨ (Rect.block (s := S16x4096x1) S1x512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S16x1x4096.size a
  hwx0_1 : ∀ i : grid0.Coords, EltTy.bits .f32 = 32 ∨ (Rect.block (s := S16x1x4096) S1x1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S16x4096x4096.size a
  hwx0_2 : ∀ i : grid0.Coords, EltTy.bits .f32 = 32 ∨ (Rect.block (s := S16x4096x4096) S1x512x4096.size (cc0_transform_2 i) (hinb0_2 i)).WholeWords (EltTy.packing .f32)

variable [Facts₀]

abbrev win0_0 : Pipeline.Window sig grid0 :=
  Pipeline.Window.ofSpec (Memref.whole main_v0) S1x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096 : Shape := ⟨2, ![16, 4096]⟩
abbrev S16x4096x1 : Shape := ⟨3, ![16, 4096, 1]⟩
abbrev S16x1x4096 : Shape := ⟨3, ![16, 1, 4096]⟩
abbrev S16x4096x4096 : Shape := ⟨3, ![16, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x4096x4096 : Shape := ⟨3, ![1, 4096, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S16x4096, .f32⟩
  | .hbm, ⟨2, _⟩ => ⟨S16x4096x1, .f32⟩
  | .hbm, ⟨3, _⟩ => ⟨S16x1x4096, .f32⟩
  | .hbm, ⟨4, _⟩ => ⟨S16x4096x4096, .f32⟩
  | .hbm, ⟨5, _⟩ => ⟨S16x4096x4096, .f32⟩
  | .hbm, ⟨6, _⟩ => ⟨S16x4096x4096, .f32⟩
  | .hbm, ⟨7, _⟩ => ⟨S4096, .i32⟩
  | .hbm, ⟨8, _⟩ => ⟨S4096x1, .i32⟩
  | .hbm, ⟨9, _⟩ => ⟨S4096, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i1⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S4096x4096, .i1⟩
  | .hbm, ⟨21, _⟩ => ⟨S1x4096x4096, .i1⟩
  | .hbm, ⟨22, _⟩ => ⟨S_, .f32⟩
  | .hbm, ⟨23, _⟩ => ⟨S16x4096x4096, .i1⟩
  | .hbm, ⟨24, _⟩ => ⟨S16x4096x4096, .f32⟩
  | .hbm, ⟨25, _⟩ => ⟨S16x4096x4096, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S16x4096x4096_0_1_2 : S1x4096x4096.BroadcastsInDim S16x4096x4096 (![0, 1, 2] : Fin 3 → Fin S16x4096x4096.rank)
  bcast_S_S16x4096x4096 : S_.BroadcastsInDim S16x4096x4096 (![] : Fin 0 → Fin S16x4096x4096.rank)

variable [Facts₀]

class Facts : Prop extends Facts₀ where

variable [Facts]
-- ==== Proof.K.Cases.lean ====
/-
  The row tiles of the band kernel fall in two cases. The grid is 16 batches by 8 row tiles of 512 rows; at row
  tile `i` the body first fills its whole 512 x 4096 output block with zeros and then overwrites a column strip
  starting at column `512 * i`: 640 columns wide when `512 * i + 640 <= 4096` (row tiles 0 to 6), and 512
  columns wide otherwise (row tile 7, where the strip ends exactly at the last column). The two tests the body
  makes are decided here over the 128 grid points: the first holds exactly off the last row tile, the second
  exactly on it, so every point takes exactly one of the two strips.
-/
import proofs.«106445_j68676527063502_2_alg».proof.Proof.Gen.Kernel.Frame
import proofs.«106445_j68676527063502_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The wide strip is taken exactly at the points whose row tile is not the last one. -/
theorem wide_iff : ∀ t : Fin cfg0.N, k0_cond1 (grid0.coords t) = 1#1 ↔ t.val % 8 ≠ 7 :=
  (by decide +kernel : ∀ t : Fin grid0.N, k0_cond1 (grid0.coords t) = 1#1 ↔ t.val % 8 ≠ 7)

/-- The narrow strip is taken exactly at the points whose row tile is the last one. -/
theorem narrow_iff : ∀ t : Fin cfg0.N, k0_cond2 (grid0.coords t) = 1#1 ↔ t.val % 8 = 7 :=
  (by decide +kernel : ∀ t : Fin grid0.N, k0_cond2 (grid0.coords t) = 1#1 ↔ t.val % 8 = 7)

/-- One staging buffer of the output window, through which the block's contents are stated (any view of the
    block's shape reads a covering list of writes the same way). -/
abbrev outView : View sig .tc .vmem S1x512x4096 .f32 := (Memref.whole cc0_stg2_0 : Memref sig .tc .vmem S1x512x4096 .f32).view

/-- Each window's current staging buffer at point `t`, as the pipeline passes it to the body, and that it is a
    whole buffer. -/
abbrev stgS (t : Fin cfg0.N) : Memref sig .tc .vmem S1x512x1 .f32 := win0_0.stage (cfg0.slots t 0)
abbrev stgS_whole (t : Fin cfg0.N) : (stgS t).IsWhole := hstage0_0 ((cfg0.slots t 0).cast nbuf0_0)
abbrev stgE (t : Fin cfg0.N) : Memref sig .tc .vmem S1x1x4096 .f32 := win0_1.stage (cfg0.slots t 1)
abbrev stgE_whole (t : Fin cfg0.N) : (stgE t).IsWhole := hstage0_1 ((cfg0.slots t 1).cast nbuf0_1)
abbrev stgO (t : Fin cfg0.N) : Memref sig .tc .vmem S1x512x4096 .f32 := win0_2.stage (cfg0.slots t 2)
abbrev stgO_whole (t : Fin cfg0.N) : (stgO t).IsWhole := hstage0_2 ((cfg0.slots t 2).cast nbuf0_2)

end Cert.Kernel.Body

end
-- ==== Proof.K.RunWide.lean ====
/-
  The body of the band kernel at a point that takes the wide (640-column) strip: on whole staging buffers — the two
  inputs at their contents, the output at anything — it runs to its end, leaves the inputs as they were, and
  leaves in the output buffer two writes: the zero fill of the whole block and, over it, the strip of masked
  products. The list of writes (newest first) is what the run finds.
-/
import proofs.«106445_j68676527063502_2_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The writes the body leaves in the output buffer at a point of the wide strip (newest first), with the
    proof that the body runs to its continuation holding the inputs unchanged and the output with those writes. -/
noncomputable def runWide (c : Dev nD) (i : grid0.Coords)
    (arg2 : Memref sig .tc .vmem S1x512x1 .f32) (harg2 : arg2.IsWhole)
    (arg3 : Memref sig .tc .vmem S1x1x4096 .f32) (harg3 : arg3.IsWhole)
    (arg4 : Memref sig .tc .vmem S1x512x4096 .f32) (harg4 : arg4.IsWhole)
    (hc0 : k0_cond1 i = 1#1) (hc1 : ¬k0_cond2 i = 1#1)
    (x0 : Vec F S1x512x1 .f32) (x1 : Vec F S1x1x4096 .f32) :
    { L2 : List (View.Piece (Elt F) S1x512x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__kernel i arg2 harg2 arg3 harg3 arg4 harg4) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Body

end
-- ==== Proof.K.RunNarrow.lean ====
/-
  The body of the band kernel at a point that takes the narrow (512-column) strip: on whole staging buffers — the two
  inputs at their contents, the output at anything — it runs to its end, leaves the inputs as they were, and
  leaves in the output buffer two writes: the zero fill of the whole block and, over it, the strip of masked
  products. The list of writes (newest first) is what the run finds.
-/
import proofs.«106445_j68676527063502_2_alg».proof.Proof.K.RunWide

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The writes the body leaves in the output buffer at a point of the narrow strip (newest first), with the
    proof that the body runs to its continuation holding the inputs unchanged and the output with those writes. -/
noncomputable def runNarrow (c : Dev nD) (i : grid0.Coords)
    (arg2 : Memref sig .tc .vmem S1x512x1 .f32) (harg2 : arg2.IsWhole)
    (arg3 : Memref sig .tc .vmem S1x1x4096 .f32) (harg3 : arg3.IsWhole)
    (arg4 : Memref sig .tc .vmem S1x512x4096 .f32) (harg4 : arg4.IsWhole)
    (hc0 : ¬k0_cond1 i = 1#1) (hc1 : k0_cond2 i = 1#1)
    (x0 : Vec F S1x512x1 .f32) (x1 : Vec F S1x1x4096 .f32) :
    { L2 : List (View.Piece (Elt F) S1x512x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__kernel i arg2 harg2 arg3 harg3 arg4 harg4) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Body

end
-- ==== Proof.K.Frame.lean ====
/-
  The frame of the band kernel: at every one of the 128 grid points the body, called on the current staging
  buffers, runs to its end, leaves the two input blocks in place and leaves the output block at a value named
  here (`outAt`): the zero fill overwritten by the point's strip — the wide strip off the last row tile, the
  narrow one on it. The zero fill covers the whole block, so the block's contents after the body do not depend
  on what the buffer held before. With that proof data the pipeline library's frame run gives: the program
  terminates, faults nowhere, leaves its argument arrays unchanged, and ends with the output array assembled
  from the blocks `outAt` names.
-/
import proofs.«106445_j68676527063502_2_alg».proof.Proof.K.RunNarrow

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block -/

/-- The writes of the wide-strip case cover the block: one of them is the zero fill of the whole block. -/
theorem coverWide (c : Dev nD) (i : grid0.Coords)
    (arg2 : Memref sig .tc .vmem S1x512x1 .f32) (harg2 : arg2.IsWhole)
    (arg3 : Memref sig .tc .vmem S1x1x4096 .f32) (harg3 : arg3.IsWhole)
    (arg4 : Memref sig .tc .vmem S1x512x4096 .f32) (harg4 : arg4.IsWhole)
    (hc0 : k0_cond1 i = 1#1) (hc1 : ¬k0_cond2 i = 1#1)
    (x0 : Vec F S1x512x1 .f32) (x1 : Vec F S1x1x4096 .f32) (y : S1x512x4096.Idx) :
    ∃ pc ∈ (runWide c i arg2 harg2 arg3 harg3 arg4 harg4 hc0 hc1 x0 x1).1, y ∈ pc.1.set :=
  View.cover_of_wholeMem (runWide c i arg2 harg2 arg3 harg3 arg4 harg4 hc0 hc1 x0 x1).1 (by sl_whole_mem) y

/-- What the wide-strip case leaves in the output block: its writes read back. -/
def outWide (c : Dev nD) (i : grid0.Coords)
    (arg2 : Memref sig .tc .vmem S1x512x1 .f32) (harg2 : arg2.IsWhole)
    (arg3 : Memref sig .tc .vmem S1x1x4096 .f32) (harg3 : arg3.IsWhole)
    (arg4 : Memref sig .tc .vmem S1x512x4096 .f32) (harg4 : arg4.IsWhole)
    (hc0 : k0_cond1 i = 1#1) (hc1 : ¬k0_cond2 i = 1#1)
    (x0 : Vec F S1x512x1 .f32) (x1 : Vec F S1x1x4096 .f32) : Vec F S1x512x4096 .f32 :=
  outView.read (Elt F) (outView.writes (Elt F) outView.junk (runWide c i arg2 harg2 arg3 harg3 arg4 harg4 hc0 hc1 x0 x1).1)

/-- The writes of the narrow-strip case cover the block: one of them is the zero fill of the whole block. -/
theorem coverNarrow (c : Dev nD) (i : grid0.Coords)
    (arg2 : Memref sig .tc .vmem S1x512x1 .f32) (harg2 : arg2.IsWhole)
    (arg3 : Memref sig .tc .vmem S1x1x4096 .f32) (harg3 : arg3.IsWhole)
    (arg4 : Memref sig .tc .vmem S1x512x4096 .f32) (harg4 : arg4.IsWhole)
    (hc0 : ¬k0_cond1 i = 1#1) (hc1 : k0_cond2 i = 1#1)
    (x0 : Vec F S1x512x1 .f32) (x1 : Vec F S1x1x4096 .f32) (y : S1x512x4096.Idx) :
    ∃ pc ∈ (runNarrow c i arg2 harg2 arg3 harg3 arg4 harg4 hc0 hc1 x0 x1).1, y ∈ pc.1.set :=
  View.cover_of_wholeMem (runNarrow c i arg2 harg2 arg3 harg3 arg4 harg4 hc0 hc1 x0 x1).1 (by sl_whole_mem) y

/-- What the narrow-strip case leaves in the output block: its writes read back. -/
def outNarrow (c : Dev nD) (i : grid0.Coords)
    (arg2 : Memref sig .tc .vmem S1x512x1 .f32) (harg2 : arg2.IsWhole)
    (arg3 : Memref sig .tc .vmem S1x1x4096 .f32) (harg3 : arg3.IsWhole)
    (arg4 : Memref sig .tc .vmem S1x512x4096 .f32) (harg4 : arg4.IsWhole)
    (hc0 : ¬k0_cond1 i = 1#1) (hc1 : k0_cond2 i = 1#1)
    (x0 : Vec F S1x512x1 .f32) (x1 : Vec F S1x1x4096 .f32) : Vec F S1x512x4096 .f32 :=
  outView.read (Elt F) (outView.writes (Elt F) outView.junk (runNarrow c i arg2 harg2 arg3 harg3 arg4 harg4 hc0 hc1 x0 x1).1)

/-! ## The output block after each point -/

/-- What the output's staging buffer holds after the body at point `t`: the narrow-strip contents on the last
    row tile, the wide-strip contents elsewhere, of the point's two input blocks. -/
def outAt (c : Dev nD) (t : Fin cfg0.N) : Vec F S1x512x4096 .f32 :=
  if h : t.val % 8 = 7 then
    outNarrow c (grid0.coords t) (stgS t) (stgS_whole t) (stgE t) (stgE_whole t) (stgO t) (stgO_whole t)
      (fun hw => (wide_iff t).mp hw h) ((narrow_iff t).mpr h) (iblk m c 0 t) (iblk m c 1 t)
  else
    outWide c (grid0.coords t) (stgS t) (stgS_whole t) (stgE t) (stgE_whole t) (stgO t) (stgO_whole t)
      ((wide_iff t).mpr h) (fun hn => h ((narrow_iff t).mp hn)) (iblk m c 0 t) (iblk m c 1 t)

theorem outAt_narrow (c : Dev nD) (t : Fin cfg0.N) (h : t.val % 8 = 7) :
    outAt m c t = outNarrow c (grid0.coords t) (stgS t) (stgS_whole t) (stgE t) (stgE_whole t) (stgO t) (stgO_whole t)
      (fun hw => (wide_iff t).mp hw h) ((narrow_iff t).mpr h) (iblk m c 0 t) (iblk m c 1 t) := dif_pos h

theorem outAt_wide (c : Dev nD) (t : Fin cfg0.N) (h : ¬t.val % 8 = 7) :
    outAt m c t = outWide c (grid0.coords t) (stgS t) (stgS_whole t) (stgE t) (stgE_whole t) (stgO t) (stgO_whole t)
      ((wide_iff t).mpr h) (fun hn => h ((narrow_iff t).mp hn)) (iblk m c 0 t) (iblk m c 1 t) := dif_neg h

/-! ## The pipeline's proof data -/

/-- The proof data of the one pipeline on core `c`: the arrays as the region finds them; after the body at point
    `t` each input's buffer at its block and the output's at `outAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_s (c : Dev nD) (t : Fin cfg0.N) : (dats m 0 c).after 0 t = iblk m c 0 t := by dsimp only [dats]
theorem after_e (c : Dev nD) (t : Fin cfg0.N) : (dats m 0 c).after 1 t = iblk m c 1 t := by dsimp only [dats]
theorem after_o (c : Dev nD) (t : Fin cfg0.N) : (dats m 0 c).after 2 t = outAt m c t := by dsimp only [dats]

/-- Each input's current staging buffer holds its block at every point, fetched there or not. -/
theorem before_s (c : Dev nD) (t : Fin cfg0.N) (d) : (dats m 0 c).before 0 t d = iblk m c 0 t :=
  before0_0_of m (dats m 0 c) (A_eq m c 0) (after_s m c) t d
theorem before_e (c : Dev nD) (t : Fin cfg0.N) (d) : (dats m 0 c).before 1 t d = iblk m c 1 t :=
  before0_1_of m (dats m 0 c) (A_eq m c 1) (after_e m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stgS t) fullShare ((dats m 0 c).before 0 t d))
    ∗ (∃ d, owns (c : Thread nD τ) (stgE t) fullShare ((dats m 0 c).before 1 t d))
    ∗ (∃ d, owns (c : Thread nD τ) (stgO t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (stgS t) fullShare ((dats m 0 c).after 0 t)
    ∗ owns (c : Thread nD τ) (stgE t) fullShare ((dats m 0 c).after 1 t)
    ∗ owns (c : Thread nD τ) (stgO t) fullShare ((dats m 0 c).after 2 t))

set_option maxHeartbeats 800000 in
/-- The body at any point: the inputs' buffers hold their blocks; the row tile says which strip the point takes;
    that case's run applies; the invariant passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_s, before_e]
  rw [show (dats m 0 c).Φ t.succ = (dats m 0 c).Φ t.castSucc from rfl,
    show (dats m 0 c).owesAt () t.succ = (dats m 0 c).owesAt () t.castSucc from rfl,
    after_s, after_e, after_o]
  by_cases h : t.val % 8 = 7
  · rw [outAt_narrow m c t h]
    unfold outNarrow
    iintro ⟨HΦ, Ho, ⟨%d0, H0⟩, ⟨%d1, H1⟩, ⟨%d2, H2⟩⟩
    iapply ((runNarrow c (grid0.coords t) _ _ _ _ _ _ (fun hw => (wide_iff t).mp hw h) ((narrow_iff t).mpr h) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverNarrow c _ _ _ _ _ _ _ _ _ _ _)
  · rw [outAt_wide m c t h]
    unfold outWide
    iintro ⟨HΦ, Ho, ⟨%d0, H0⟩, ⟨%d1, H1⟩, ⟨%d2, H2⟩⟩
    iapply ((runWide c (grid0.coords t) _ _ _ _ _ _ ((wide_iff t).mpr h) (fun hn => h ((narrow_iff t).mp hn)) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverWide c _ _ _ _ _ _ _ _ _ _ _)

set_option maxHeartbeats 4000000 in
/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final
    state has each array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KI.Cases.lean ====
/-
  The row tiles of the band kernel fall in two cases. The grid is 16 batches by 8 row tiles of 512 rows; at row
  tile `i` the body first fills its whole 512 x 4096 output block with zeros and then overwrites a column strip
  starting at column `512 * i`: 640 columns wide when `512 * i + 640 <= 4096` (row tiles 0 to 6), and 512
  columns wide otherwise (row tile 7, where the strip ends exactly at the last column). The two tests the body
  makes are decided here over the 128 grid points: the first holds exactly off the last row tile, the second
  exactly on it, so every point takes exactly one of the two strips.
-/
import proofs.«106445_j68676527063502_2_alg».proof.Proof.Gen.KernelIdeal.Frame
import proofs.«106445_j68676527063502_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The wide strip is taken exactly at the points whose row tile is not the last one. -/
theorem wide_iff : ∀ t : Fin cfg0.N, k0_cond1 (grid0.coords t) = 1#1 ↔ t.val % 8 ≠ 7 :=
  (by decide +kernel : ∀ t : Fin grid0.N, k0_cond1 (grid0.coords t) = 1#1 ↔ t.val % 8 ≠ 7)

/-- The narrow strip is taken exactly at the points whose row tile is the last one. -/
theorem narrow_iff : ∀ t : Fin cfg0.N, k0_cond2 (grid0.coords t) = 1#1 ↔ t.val % 8 = 7 :=
  (by decide +kernel : ∀ t : Fin grid0.N, k0_cond2 (grid0.coords t) = 1#1 ↔ t.val % 8 = 7)

/-- One staging buffer of the output window, through which the block's contents are stated (any view of the
    block's shape reads a covering list of writes the same way). -/
abbrev outView : View sig .tc .vmem S1x512x4096 .f32 := (Memref.whole cc0_stg2_0 : Memref sig .tc .vmem S1x512x4096 .f32).view

/-- Each window's current staging buffer at point `t`, as the pipeline passes it to the body, and that it is a
    whole buffer. -/
abbrev stgS (t : Fin cfg0.N) : Memref sig .tc .vmem S1x512x1 .f32 := win0_0.stage (cfg0.slots t 0)
abbrev stgS_whole (t : Fin cfg0.N) : (stgS t).IsWhole := hstage0_0 ((cfg0.slots t 0).cast nbuf0_0)
abbrev stgE (t : Fin cfg0.N) : Memref sig .tc .vmem S1x1x4096 .f32 := win0_1.stage (cfg0.slots t 1)
abbrev stgE_whole (t : Fin cfg0.N) : (stgE t).IsWhole := hstage0_1 ((cfg0.slots t 1).cast nbuf0_1)
abbrev stgO (t : Fin cfg0.N) : Memref sig .tc .vmem S1x512x4096 .f32 := win0_2.stage (cfg0.slots t 2)
abbrev stgO_whole (t : Fin cfg0.N) : (stgO t).IsWhole := hstage0_2 ((cfg0.slots t 2).cast nbuf0_2)

end Cert.KernelIdeal.Body

end
-- ==== Proof.KI.RunWide.lean ====
/-
  The body of the band kernel at a point that takes the wide (640-column) strip: on whole staging buffers — the two
  inputs at their contents, the output at anything — it runs to its end, leaves the inputs as they were, and
  leaves in the output buffer two writes: the zero fill of the whole block and, over it, the strip of masked
  products. The list of writes (newest first) is what the run finds.
-/
import proofs.«106445_j68676527063502_2_alg».proof.Proof.KI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The writes the body leaves in the output buffer at a point of the wide strip (newest first), with the
    proof that the body runs to its continuation holding the inputs unchanged and the output with those writes. -/
noncomputable def runWide (c : Dev nD) (i : grid0.Coords)
    (arg2 : Memref sig .tc .vmem S1x512x1 .f32) (harg2 : arg2.IsWhole)
    (arg3 : Memref sig .tc .vmem S1x1x4096 .f32) (harg3 : arg3.IsWhole)
    (arg4 : Memref sig .tc .vmem S1x512x4096 .f32) (harg4 : arg4.IsWhole)
    (hc0 : k0_cond1 i = 1#1) (hc1 : ¬k0_cond2 i = 1#1)
    (x0 : Vec F S1x512x1 .f32) (x1 : Vec F S1x1x4096 .f32) :
    { L2 : List (View.Piece (Elt F) S1x512x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__kernel i arg2 harg2 arg3 harg3 arg4 harg4) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Body

end
-- ==== Proof.KI.RunNarrow.lean ====
/-
  The body of the band kernel at a point that takes the narrow (512-column) strip: on whole staging buffers — the two
  inputs at their contents, the output at anything — it runs to its end, leaves the inputs as they were, and
  leaves in the output buffer two writes: the zero fill of the whole block and, over it, the strip of masked
  products. The list of writes (newest first) is what the run finds.
-/
import proofs.«106445_j68676527063502_2_alg».proof.Proof.KI.RunWide

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The writes the body leaves in the output buffer at a point of the narrow strip (newest first), with the
    proof that the body runs to its continuation holding the inputs unchanged and the output with those writes. -/
noncomputable def runNarrow (c : Dev nD) (i : grid0.Coords)
    (arg2 : Memref sig .tc .vmem S1x512x1 .f32) (harg2 : arg2.IsWhole)
    (arg3 : Memref sig .tc .vmem S1x1x4096 .f32) (harg3 : arg3.IsWhole)
    (arg4 : Memref sig .tc .vmem S1x512x4096 .f32) (harg4 : arg4.IsWhole)
    (hc0 : ¬k0_cond1 i = 1#1) (hc1 : k0_cond2 i = 1#1)
    (x0 : Vec F S1x512x1 .f32) (x1 : Vec F S1x1x4096 .f32) :
    { L2 : List (View.Piece (Elt F) S1x512x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__kernel i arg2 harg2 arg3 harg3 arg4 harg4) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Body

end
-- ==== Proof.KI.Frame.lean ====
/-
  The frame of the band kernel: at every one of the 128 grid points the body, called on the current staging
  buffers, runs to its end, leaves the two input blocks in place and leaves the output block at a value named
  here (`outAt`): the zero fill overwritten by the point's strip — the wide strip off the last row tile, the
  narrow one on it. The zero fill covers the whole block, so the block's contents after the body do not depend
  on what the buffer held before. With that proof data the pipeline library's frame run gives: the program
  terminates, faults nowhere, leaves its argument arrays unchanged, and ends with the output array assembled
  from the blocks `outAt` names.
-/
import proofs.«106445_j68676527063502_2_alg».proof.Proof.KI.RunNarrow

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block -/

/-- The writes of the wide-strip case cover the block: one of them is the zero fill of the whole block. -/
theorem coverWide (c : Dev nD) (i : grid0.Coords)
    (arg2 : Memref sig .tc .vmem S1x512x1 .f32) (harg2 : arg2.IsWhole)
    (arg3 : Memref sig .tc .vmem S1x1x4096 .f32) (harg3 : arg3.IsWhole)
    (arg4 : Memref sig .tc .vmem S1x512x4096 .f32) (harg4 : arg4.IsWhole)
    (hc0 : k0_cond1 i = 1#1) (hc1 : ¬k0_cond2 i = 1#1)
    (x0 : Vec F S1x512x1 .f32) (x1 : Vec F S1x1x4096 .f32) (y : S1x512x4096.Idx) :
    ∃ pc ∈ (runWide c i arg2 harg2 arg3 harg3 arg4 harg4 hc0 hc1 x0 x1).1, y ∈ pc.1.set :=
  View.cover_of_wholeMem (runWide c i arg2 harg2 arg3 harg3 arg4 harg4 hc0 hc1 x0 x1).1 (by sl_whole_mem) y

/-- What the wide-strip case leaves in the output block: its writes read back. -/
def outWide (c : Dev nD) (i : grid0.Coords)
    (arg2 : Memref sig .tc .vmem S1x512x1 .f32) (harg2 : arg2.IsWhole)
    (arg3 : Memref sig .tc .vmem S1x1x4096 .f32) (harg3 : arg3.IsWhole)
    (arg4 : Memref sig .tc .vmem S1x512x4096 .f32) (harg4 : arg4.IsWhole)
    (hc0 : k0_cond1 i = 1#1) (hc1 : ¬k0_cond2 i = 1#1)
    (x0 : Vec F S1x512x1 .f32) (x1 : Vec F S1x1x4096 .f32) : Vec F S1x512x4096 .f32 :=
  outView.read (Elt F) (outView.writes (Elt F) outView.junk (runWide c i arg2 harg2 arg3 harg3 arg4 harg4 hc0 hc1 x0 x1).1)

/-- The writes of the narrow-strip case cover the block: one of them is the zero fill of the whole block. -/
theorem coverNarrow (c : Dev nD) (i : grid0.Coords)
    (arg2 : Memref sig .tc .vmem S1x512x1 .f32) (harg2 : arg2.IsWhole)
    (arg3 : Memref sig .tc .vmem S1x1x4096 .f32) (harg3 : arg3.IsWhole)
    (arg4 : Memref sig .tc .vmem S1x512x4096 .f32) (harg4 : arg4.IsWhole)
    (hc0 : ¬k0_cond1 i = 1#1) (hc1 : k0_cond2 i = 1#1)
    (x0 : Vec F S1x512x1 .f32) (x1 : Vec F S1x1x4096 .f32) (y : S1x512x4096.Idx) :
    ∃ pc ∈ (runNarrow c i arg2 harg2 arg3 harg3 arg4 harg4 hc0 hc1 x0 x1).1, y ∈ pc.1.set :=
  View.cover_of_wholeMem (runNarrow c i arg2 harg2 arg3 harg3 arg4 harg4 hc0 hc1 x0 x1).1 (by sl_whole_mem) y

/-- What the narrow-strip case leaves in the output block: its writes read back. -/
def outNarrow (c : Dev nD) (i : grid0.Coords)
    (arg2 : Memref sig .tc .vmem S1x512x1 .f32) (harg2 : arg2.IsWhole)
    (arg3 : Memref sig .tc .vmem S1x1x4096 .f32) (harg3 : arg3.IsWhole)
    (arg4 : Memref sig .tc .vmem S1x512x4096 .f32) (harg4 : arg4.IsWhole)
    (hc0 : ¬k0_cond1 i = 1#1) (hc1 : k0_cond2 i = 1#1)
    (x0 : Vec F S1x512x1 .f32) (x1 : Vec F S1x1x4096 .f32) : Vec F S1x512x4096 .f32 :=
  outView.read (Elt F) (outView.writes (Elt F) outView.junk (runNarrow c i arg2 harg2 arg3 harg3 arg4 harg4 hc0 hc1 x0 x1).1)

/-! ## The output block after each point -/

/-- What the output's staging buffer holds after the body at point `t`: the narrow-strip contents on the last
    row tile, the wide-strip contents elsewhere, of the point's two input blocks. -/
def outAt (c : Dev nD) (t : Fin cfg0.N) : Vec F S1x512x4096 .f32 :=
  if h : t.val % 8 = 7 then
    outNarrow c (grid0.coords t) (stgS t) (stgS_whole t) (stgE t) (stgE_whole t) (stgO t) (stgO_whole t)
      (fun hw => (wide_iff t).mp hw h) ((narrow_iff t).mpr h) (iblk m c 0 t) (iblk m c 1 t)
  else
    outWide c (grid0.coords t) (stgS t) (stgS_whole t) (stgE t) (stgE_whole t) (stgO t) (stgO_whole t)
      ((wide_iff t).mpr h) (fun hn => h ((narrow_iff t).mp hn)) (iblk m c 0 t) (iblk m c 1 t)

theorem outAt_narrow (c : Dev nD) (t : Fin cfg0.N) (h : t.val % 8 = 7) :
    outAt m c t = outNarrow c (grid0.coords t) (stgS t) (stgS_whole t) (stgE t) (stgE_whole t) (stgO t) (stgO_whole t)
      (fun hw => (wide_iff t).mp hw h) ((narrow_iff t).mpr h) (iblk m c 0 t) (iblk m c 1 t) := dif_pos h

theorem outAt_wide (c : Dev nD) (t : Fin cfg0.N) (h : ¬t.val % 8 = 7) :
    outAt m c t = outWide c (grid0.coords t) (stgS t) (stgS_whole t) (stgE t) (stgE_whole t) (stgO t) (stgO_whole t)
      ((wide_iff t).mpr h) (fun hn => h ((narrow_iff t).mp hn)) (iblk m c 0 t) (iblk m c 1 t) := dif_neg h

/-! ## The pipeline's proof data -/

/-- The proof data of the one pipeline on core `c`: the arrays as the region finds them; after the body at point
    `t` each input's buffer at its block and the output's at `outAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_s (c : Dev nD) (t : Fin cfg0.N) : (dats m 0 c).after 0 t = iblk m c 0 t := by dsimp only [dats]
theorem after_e (c : Dev nD) (t : Fin cfg0.N) : (dats m 0 c).after 1 t = iblk m c 1 t := by dsimp only [dats]
theorem after_o (c : Dev nD) (t : Fin cfg0.N) : (dats m 0 c).after 2 t = outAt m c t := by dsimp only [dats]

/-- Each input's current staging buffer holds its block at every point, fetched there or not. -/
theorem before_s (c : Dev nD) (t : Fin cfg0.N) (d) : (dats m 0 c).before 0 t d = iblk m c 0 t :=
  before0_0_of m (dats m 0 c) (A_eq m c 0) (after_s m c) t d
theorem before_e (c : Dev nD) (t : Fin cfg0.N) (d) : (dats m 0 c).before 1 t d = iblk m c 1 t :=
  before0_1_of m (dats m 0 c) (A_eq m c 1) (after_e m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stgS t) fullShare ((dats m 0 c).before 0 t d))
    ∗ (∃ d, owns (c : Thread nD τ) (stgE t) fullShare ((dats m 0 c).before 1 t d))
    ∗ (∃ d, owns (c : Thread nD τ) (stgO t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (stgS t) fullShare ((dats m 0 c).after 0 t)
    ∗ owns (c : Thread nD τ) (stgE t) fullShare ((dats m 0 c).after 1 t)
    ∗ owns (c : Thread nD τ) (stgO t) fullShare ((dats m 0 c).after 2 t))

set_option maxHeartbeats 800000 in
/-- The body at any point: the inputs' buffers hold their blocks; the row tile says which strip the point takes;
    that case's run applies; the invariant passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_s, before_e]
  rw [show (dats m 0 c).Φ t.succ = (dats m 0 c).Φ t.castSucc from rfl,
    show (dats m 0 c).owesAt () t.succ = (dats m 0 c).owesAt () t.castSucc from rfl,
    after_s, after_e, after_o]
  by_cases h : t.val % 8 = 7
  · rw [outAt_narrow m c t h]
    unfold outNarrow
    iintro ⟨HΦ, Ho, ⟨%d0, H0⟩, ⟨%d1, H1⟩, ⟨%d2, H2⟩⟩
    iapply ((runNarrow c (grid0.coords t) _ _ _ _ _ _ (fun hw => (wide_iff t).mp hw h) ((narrow_iff t).mpr h) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverNarrow c _ _ _ _ _ _ _ _ _ _ _)
  · rw [outAt_wide m c t h]
    unfold outWide
    iintro ⟨HΦ, Ho, ⟨%d0, H0⟩, ⟨%d1, H1⟩, ⟨%d2, H2⟩⟩
    iapply ((runWide c (grid0.coords t) _ _ _ _ _ _ ((wide_iff t).mpr h) (fun hn => h ((narrow_iff t).mp hn)) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverWide c _ _ _ _ _ _ _ _ _ _ _)

set_option maxHeartbeats 4000000 in
/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final
    state has each array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.BandSpec.lean ====
/-
  The specification: the banded outer product. For `s, e : [16, 4096]` the result at `(b, i, j)` is the product
  `s[b, i] * e[b, j]` when `0 <= j - i <= 15`, and the zero word's value otherwise. Both programs make the band
  test on 32-bit words (the difference `j - i` taken in two's complement, compared signed with 0 and with 15), so
  the test is kept here as that word expression, `bandBit i j`: the two sides then meet at the same bit and no
  arithmetic is needed where they agree. The one fact about the bit that is needed is where it is off: for
  coordinates below 4096, whenever `j < i` or `i + 15 < j` (so in particular at every column outside the strip
  of columns a row tile can reach).
-/
import Idealize.ShloMosaic.PureOps.Ideal
import Idealize.ShloMosaic.Lib.ValueIdx

noncomputable section

namespace Cert.Band

open Idealize.ShloMosaic Idealize.ShloMosaic.ValueIdx

/-- The band test of row `i` and column `j` as both programs compute it: `0 <= j - i` and `j - i <= 15`, signed, on
    32-bit words. -/
def bandBit (i j : ℕ) : BitVec 1 :=
  IntOp.andi (IntOp.cmpi .sge (IntOp.subi (BitVec.ofNat 32 j) (BitVec.ofNat 32 i)) 0#32)
    (IntOp.cmpi .sle (IntOp.subi (BitVec.ofNat 32 j) (BitVec.ofNat 32 i)) 15#32)

/-- Below the diagonal, or more than 15 columns to its right, the band test is off: the 32-bit difference of two
    coordinates below 4096 is the true difference, negative in the first case and above 15 in the second. -/
theorem bandBit_off {i j : ℕ} (hi : i < 4096) (hj : j < 4096) (h : j < i ∨ i + 15 < j) : bandBit i j = 0#1 := by
  unfold bandBit IntOp.andi IntOp.cmpi IntOp.subi
  dsimp only
  have hd : (BitVec.ofNat 32 j - BitVec.ofNat 32 i).toNat = (2 ^ 32 - i + j) % 2 ^ 32 := by
    rw [BitVec.toNat_sub, BitVec.toNat_ofNat, BitVec.toNat_ofNat, Nat.mod_eq_of_lt (by omega : i < 2 ^ 32),
      Nat.mod_eq_of_lt (by omega : j < 2 ^ 32)]
  rcases h with h | h
  · have h1 : (0#32).sle (BitVec.ofNat 32 j - BitVec.ofNat 32 i) = false := by
      rw [BitVec.sle_eq_decide, decide_eq_false_iff_not, BitVec.toInt_eq_toNat_cond, BitVec.toInt_eq_toNat_cond, hd]
      simp only [BitVec.toNat_ofNat]
      omega
    rw [h1]
    generalize (BitVec.ofNat 32 j - BitVec.ofNat 32 i).sle 15#32 = b
    cases b <;> rfl
  · have h2 : (BitVec.ofNat 32 j - BitVec.ofNat 32 i).sle 15#32 = false := by
      rw [BitVec.sle_eq_decide, decide_eq_false_iff_not, BitVec.toInt_eq_toNat_cond, BitVec.toInt_eq_toNat_cond, hd]
      simp only [BitVec.toNat_ofNat]
      omega
    rw [h2]
    generalize (0#32).sle (BitVec.ofNat 32 j - BitVec.ofNat 32 i) = b
    cases b <;> rfl

/-- The word a row tile's 512-fold offset plus a coordinate inside the tile makes is the word of the global
    coordinate `512 * tile + r`: word arithmetic is arithmetic modulo 2^32, which the word of a natural respects. -/
theorem tile_plus (ib r : ℕ) :
    IntOp.addi (Scalar.muli (BitVec.ofNat 32 ib) 512#32) (BitVec.ofNat 32 r) = BitVec.ofNat 32 (512 * ib + r) := by
  unfold IntOp.addi Scalar.muli IntOp.muli
  rw [BitVec.ofNat_add, BitVec.ofNat_mul, BitVec.mul_comm]

variable {F : FTy → Type} [FloatOps F]

/-- The banded outer product of `s` and `e`, index by index. -/
def band (s e : (⟨2, ![16, 4096]⟩ : Shape).Idx → F .f32) : (⟨3, ![16, 4096, 4096]⟩ : Shape).Idx → F .f32 :=
  fun y => Scalar.select (bandBit (y 1).val (y 2).val)
    (FloatOps.mulf (s (ix2 (n0 := 16) (n1 := 4096) (y 0) (y 1))) (e (ix2 (n0 := 16) (n1 := 4096) (y 0) (y 2))))
    (FloatOps.ofBits .f32 0x00000000#32)

theorem band_apply (s e : (⟨2, ![16, 4096]⟩ : Shape).Idx → F .f32) (b : Fin 16) (i j : Fin 4096) :
    band s e (ix3 b i j) = Scalar.select (bandBit i.val j.val) (FloatOps.mulf (s (ix2 b i)) (e (ix2 b j)))
      (FloatOps.ofBits .f32 0x00000000#32) := rfl

end Cert.Band

end
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.LibBlockCasts.lean ====
/-
  Casts between a rank-3 block with unit axes and the rank-2 or rank-1 vector it holds, read at an index, for any
  extents: a column block [1, a, 1] as the column [a, 1]; a row block [1, 1, b] as the vector [b]; a matrix [a, b]
  as the block [1, a, b]. A cast keeps row-major position, and on each side the unit axes contribute nothing to it.
-/
import Idealize.ShloMosaic.Lib.Pipeline.Value
import Idealize.ShloMosaic.Lib.ValueIdx

noncomputable section

namespace Cert.LibBlockCasts

open Idealize.ShloMosaic Idealize.ShloMosaic.ValueIdx

variable {α : Type} {a b : ℕ}

/-- Entry `(n, 0)` of a column block [1, a, 1] cast to the column [a, 1] is the block's entry `(0, n, 0)`. -/
theorem shapeCast_colBlock_apply (x : (⟨3, ![1, a, 1]⟩ : Shape).Idx → α)
    (h : (⟨3, ![1, a, 1]⟩ : Shape).ShapeCasts ⟨2, ![a, 1]⟩) (n : Fin a) :
    shapeCast ⟨2, ![a, 1]⟩ x h (ix2 n (0 : Fin 1)) = x (ix3 (0 : Fin 1) n (0 : Fin 1)) :=
  shapeCast_apply x h (ix2 n (0 : Fin 1)) (ix3 (0 : Fin 1) n (0 : Fin 1)) (by
    rw [Shape.rowMajor_val_three, Shape.rowMajor_val_two]
    show (0 * a + n.val) * 1 + 0 = n.val * 1 + 0
    omega)

/-- Entry `k` of a row block [1, 1, b] cast to the vector [b] is the block's entry `(0, 0, k)`. -/
theorem shapeCast_rowBlock_apply (x : (⟨3, ![1, 1, b]⟩ : Shape).Idx → α)
    (h : (⟨3, ![1, 1, b]⟩ : Shape).ShapeCasts ⟨1, ![b]⟩) (k : Fin b) :
    shapeCast ⟨1, ![b]⟩ x h (ix1 k) = x (ix3 (0 : Fin 1) (0 : Fin 1) k) :=
  shapeCast_apply x h (ix1 k) (ix3 (0 : Fin 1) (0 : Fin 1) k) (by
    rw [Shape.rowMajor_val_three, Shape.rowMajor_val_one]
    show (0 * 1 + 0) * b + k.val = k.val
    simp)

/-- Entry `(0, n, k)` of a matrix [a, b] cast to the block [1, a, b] is the matrix's entry `(n, k)`. -/
theorem shapeCast_toBlock_apply (x : (⟨2, ![a, b]⟩ : Shape).Idx → α)
    (h : (⟨2, ![a, b]⟩ : Shape).ShapeCasts ⟨3, ![1, a, b]⟩) (n : Fin a) (k : Fin b) :
    shapeCast ⟨3, ![1, a, b]⟩ x h (ix3 (0 : Fin 1) n k) = x (ix2 n k) :=
  shapeCast_apply x h (ix3 (0 : Fin 1) n k) (ix2 n k) (by
    rw [Shape.rowMajor_val_three, Shape.rowMajor_val_two]
    show n.val * b + k.val = (0 * a + n.val) * b + k.val
    simp)

/-- Every index of a block [1, a, b] has leading coordinate 0. -/
theorem eq_ix3_zero (y : (⟨3, ![1, a, b]⟩ : Shape).Idx) : y = ix3 (0 : Fin 1) (y 1) (y 2) := by
  have h := eq_ix3 y
  have h0 : y 0 = (0 : Fin 1) := Fin.ext (by
    have h1 : (y 0).val < 1 := (y 0).isLt
    show (y 0).val = 0
    omega)
  rw [h0] at h
  exact h

end Cert.LibBlockCasts

end
-- ==== Proof.KI.Payload.lean ====
/-
  The strip the body writes, read at an index. The strip's value at row `r` of the tile and column `q` of the strip
  is: the band test of the global row `512 * tile + r` and the global column `512 * tile + q` (the body adds the
  tile's offset to a row iota and to a column iota, subtracts, and compares signed with 0 and 15), selecting between
  the product of the tile's `s` entry at row `r` and the strip's `e` entry at column `q`, and the zero word's
  value. The same holds for the wide strip (640 columns) and the narrow one (512 columns). The zero fill reads the
  zero word's value at every index.
-/
import proofs.«106445_j68676527063502_2_alg».proof.Proof.Gen.KernelIdeal.Skeleton
import proofs.«106445_j68676527063502_2_alg».proof.Proof.BandSpec
import proofs.«106445_j68676527063502_2_alg».proof.Proof.LibKeepdims
import proofs.«106445_j68676527063502_2_alg».proof.Proof.LibRowOps
import proofs.«106445_j68676527063502_2_alg».proof.Proof.LibBlockCasts

noncomputable section

namespace Cert.KernelIdeal.BandValue

open Cert.KernelIdeal Cert.KernelIdeal.Gen Idealize.ShloMosaic Idealize.ShloMosaic.ValueIdx
open Cert.LibKeepdims Cert.KernelBody Cert.LibBlockCasts Cert.Band

variable {F : FTy → Type} [FloatOps F]

/-- The zero fill holds the zero word's value everywhere. -/
theorem zeroFill_apply (y : S1x512x4096.Idx) : k0_pay1 (F := F) y = FloatOps.ofBits .f32 0x00000000#32 := rfl

/-- The wide strip at row `r`, column `q`. -/
theorem wideStrip_apply (i : grid0.Coords) (v5 : Vec F S1x512x1 .f32) (v17 : Vec F S1x1x640 .f32) (r : Fin 512) (q : Fin 640) :
    k0_pay3 i v5 v17 (ix3 (0 : Fin 1) r q)
      = Scalar.select (bandBit (512 * (i 1).val + r.val) (512 * (i 1).val + q.val))
          (FloatOps.mulf (v5 (ix3 (0 : Fin 1) r (0 : Fin 1))) (v17 (ix3 (0 : Fin 1) (0 : Fin 1) q)))
          (FloatOps.ofBits .f32 0x00000000#32) := by
  have hL : broadcastTo S512x640 (shapeCast S512x1 v5 shapeCasts_S1x512x1_S512x1) broadcasts_S512x1_S512x640 (ix2 r q)
      = v5 (ix3 (0 : Fin 1) r (0 : Fin 1)) :=
    (broadcastTo_col_apply _ _ r q).trans (shapeCast_colBlock_apply v5 _ r)
  have hR : broadcastTo S512x640 (shapeCast S1x640 (shapeCast S640 v17 shapeCasts_S1x1x640_S640) shapeCasts_S640_S1x640)
      broadcasts_S1x640_S512x640 (ix2 r q) = v17 (ix3 (0 : Fin 1) (0 : Fin 1) q) :=
    ((broadcastTo_row_apply _ _ r q).trans (shapeCast_row_apply _ _ q)).trans (shapeCast_rowBlock_apply v17 _ q)
  have hi0 : iota .tc S512x640 32 [0] iota_S512x640_d0_w32 (ix2 r q) = BitVec.ofNat 32 r.val :=
    iota_single_apply .tc S512x640 32 0 iota_S512x640_d0_w32 (ix2 r q)
  have hi1 : iota .tc S512x640 32 [1] iota_S512x640_d1_w32 (ix2 r q) = BitVec.ofNat 32 q.val :=
    iota_single_apply .tc S512x640 32 1 iota_S512x640_d1_w32 (ix2 r q)
  unfold k0_pay3 k0_pay2
  dsimp only
  refine (shapeCast_toBlock_apply _ _ r q).trans ?_
  show Scalar.select
      (IntOp.andi
        (IntOp.cmpi .sge
          (IntOp.subi
            (IntOp.addi (Scalar.muli (BitVec.ofNat 32 (i 1).val) 512#32) (iota .tc S512x640 32 [1] iota_S512x640_d1_w32 (ix2 r q)))
            (IntOp.addi (Scalar.muli (BitVec.ofNat 32 (i 1).val) 512#32) (iota .tc S512x640 32 [0] iota_S512x640_d0_w32 (ix2 r q))))
          0#32)
        (IntOp.cmpi .sle
          (IntOp.subi
            (IntOp.addi (Scalar.muli (BitVec.ofNat 32 (i 1).val) 512#32) (iota .tc S512x640 32 [1] iota_S512x640_d1_w32 (ix2 r q)))
            (IntOp.addi (Scalar.muli (BitVec.ofNat 32 (i 1).val) 512#32) (iota .tc S512x640 32 [0] iota_S512x640_d0_w32 (ix2 r q))))
          15#32))
      (FloatOps.mulf
        (broadcastTo S512x640 (shapeCast S512x1 v5 shapeCasts_S1x512x1_S512x1) broadcasts_S512x1_S512x640 (ix2 r q))
        (broadcastTo S512x640 (shapeCast S1x640 (shapeCast S640 v17 shapeCasts_S1x1x640_S640) shapeCasts_S640_S1x640)
          broadcasts_S1x640_S512x640 (ix2 r q)))
      (FloatOps.ofBits .f32 0x00000000#32) = _
  rw [hL, hR, hi0, hi1, tile_plus, tile_plus]
  rfl

/-- The narrow strip at row `r`, column `q`. -/
theorem narrowStrip_apply (i : grid0.Coords) (v5 : Vec F S1x512x1 .f32) (v17 : Vec F S1x1x512 .f32) (r : Fin 512) (q : Fin 512) :
    k0_pay4 i v5 v17 (ix3 (0 : Fin 1) r q)
      = Scalar.select (bandBit (512 * (i 1).val + r.val) (512 * (i 1).val + q.val))
          (FloatOps.mulf (v5 (ix3 (0 : Fin 1) r (0 : Fin 1))) (v17 (ix3 (0 : Fin 1) (0 : Fin 1) q)))
          (FloatOps.ofBits .f32 0x00000000#32) := by
  have hL : broadcastTo S512x512 (shapeCast S512x1 v5 shapeCasts_S1x512x1_S512x1) broadcasts_S512x1_S512x512 (ix2 r q)
      = v5 (ix3 (0 : Fin 1) r (0 : Fin 1)) :=
    (broadcastTo_col_apply _ _ r q).trans (shapeCast_colBlock_apply v5 _ r)
  have hR : broadcastTo S512x512 (shapeCast S1x512 (shapeCast S512 v17 shapeCasts_S1x1x512_S512) shapeCasts_S512_S1x512)
      broadcasts_S1x512_S512x512 (ix2 r q) = v17 (ix3 (0 : Fin 1) (0 : Fin 1) q) :=
    ((broadcastTo_row_apply _ _ r q).trans (shapeCast_row_apply _ _ q)).trans (shapeCast_rowBlock_apply v17 _ q)
  have hi0 : iota .tc S512x512 32 [0] iota_S512x512_d0_w32 (ix2 r q) = BitVec.ofNat 32 r.val :=
    iota_single_apply .tc S512x512 32 0 iota_S512x512_d0_w32 (ix2 r q)
  have hi1 : iota .tc S512x512 32 [1] iota_S512x512_d1_w32 (ix2 r q) = BitVec.ofNat 32 q.val :=
    iota_single_apply .tc S512x512 32 1 iota_S512x512_d1_w32 (ix2 r q)
  unfold k0_pay4 k0_pay2
  dsimp only
  refine (shapeCast_toBlock_apply _ _ r q).trans ?_
  show Scalar.select
      (IntOp.andi
        (IntOp.cmpi .sge
          (IntOp.subi
            (IntOp.addi (Scalar.muli (BitVec.ofNat 32 (i 1).val) 512#32) (iota .tc S512x512 32 [1] iota_S512x512_d1_w32 (ix2 r q)))
            (IntOp.addi (Scalar.muli (BitVec.ofNat 32 (i 1).val) 512#32) (iota .tc S512x512 32 [0] iota_S512x512_d0_w32 (ix2 r q))))
          0#32)
        (IntOp.cmpi .sle
          (IntOp.subi
            (IntOp.addi (Scalar.muli (BitVec.ofNat 32 (i 1).val) 512#32) (iota .tc S512x512 32 [1] iota_S512x512_d1_w32 (ix2 r q)))
            (IntOp.addi (Scalar.muli (BitVec.ofNat 32 (i 1).val) 512#32) (iota .tc S512x512 32 [0] iota_S512x512_d0_w32 (ix2 r q))))
          15#32))
      (FloatOps.mulf
        (broadcastTo S512x512 (shapeCast S512x1 v5 shapeCasts_S1x512x1_S512x1) broadcasts_S512x1_S512x512 (ix2 r q))
        (broadcastTo S512x512 (shapeCast S1x512 (shapeCast S512 v17 shapeCasts_S1x1x512_S512) shapeCasts_S512_S1x512)
          broadcasts_S1x512_S512x512 (ix2 r q)))
      (FloatOps.ofBits .f32 0x00000000#32) = _
  rw [hL, hR, hi0, hi1, tile_plus, tile_plus]
  rfl

end Cert.KernelIdeal.BandValue

end
-- ==== Proof.KI.StripReads.lean ====
/-
  Each case's output block, read at an index. The block is the zero fill overwritten by the strip, the newest write
  winning: at a column inside the strip the block holds the strip's value — the band test of the global row and
  column, selecting between the product of the tile's `s` entry and `e`'s entry at that column, and the zero word's
  value —, and at a column outside the strip it holds the zero word's value. The loads the strip is computed from
  read the input blocks through whole staging buffers, so they read the blocks' own entries: `s`'s column block
  whole, `e`'s row block from column `512 * tile` on.
-/
import proofs.«106445_j68676527063502_2_alg».proof.Proof.KI.Frame
import proofs.«106445_j68676527063502_2_alg».proof.Proof.KI.Payload
import Idealize.ShloMosaic.Lib.WritesUnit
import Idealize.ShloMosaic.Lib.WholeRead

set_option maxRecDepth 16384

noncomputable section

namespace Cert.KernelIdeal.BandValue

open Cert.KernelIdeal Cert.KernelIdeal.Gen Cert.KernelIdeal.Body Cert.Band Cert.LibBlockCasts
open Idealize.ShloMosaic Idealize.ShloMosaic.TcCoe Idealize.SL.Sem Idealize.ShloMosaic.ValueIdx

variable {F : FTy → Type} [FloatOps F]

/-- A row tile's offset word `tile * 512` has the value `512 * tile`: no tile of the eight wraps. -/
theorem tileWord_toNat : ∀ n : Fin 8, (Scalar.muli (BitVec.ofNat 32 n.val) 512#32).toNat = 512 * n.val := by decide

/-- The strip of `e` the wide case loads starts at column `512 * tile`. -/
theorem off_e_wide (i : grid0.Coords) : k0_off1 i = ![0, 0, 512 * (i 1).val] := by
  show ![0, 0, (Scalar.muli (BitVec.ofNat 32 (i 1).val) 512#32).toNat] = _
  rw [tileWord_toNat (i 1)]
/-- The strip of the output the wide case stores starts at column `512 * tile`. -/
theorem off_o_wide (i : grid0.Coords) : k0_off2 i = ![0, 0, 512 * (i 1).val] := by
  show ![0, 0, (Scalar.muli (BitVec.ofNat 32 (i 1).val) 512#32).toNat] = _
  rw [tileWord_toNat (i 1)]
/-- The strip of `e` the narrow case loads starts at column `512 * tile`. -/
theorem off_e_narrow (i : grid0.Coords) : k0_off3 i = ![0, 0, 512 * (i 1).val] := by
  show ![0, 0, (Scalar.muli (BitVec.ofNat 32 (i 1).val) 512#32).toNat] = _
  rw [tileWord_toNat (i 1)]
/-- The strip of the output the narrow case stores starts at column `512 * tile`. -/
theorem off_o_narrow (i : grid0.Coords) : k0_off4 i = ![0, 0, 512 * (i 1).val] := by
  show ![0, 0, (Scalar.muli (BitVec.ofNat 32 (i 1).val) 512#32).toNat] = _
  rw [tileWord_toNat (i 1)]

/-- In the wide case, at a column `j` inside the strip (`j = 512 * tile + q`), row `r` of the output block holds the
    band test of the global row and column selecting between `s`'s entry at row `r` times `e`'s entry at column `j`,
    and the zero word's value: the strip is the newest write there. -/
theorem outWide_in (c : Dev nD) (i : grid0.Coords)
    (arg2 : Memref sig .tc .vmem S1x512x1 .f32) (harg2 : arg2.IsWhole)
    (arg3 : Memref sig .tc .vmem S1x1x4096 .f32) (harg3 : arg3.IsWhole)
    (arg4 : Memref sig .tc .vmem S1x512x4096 .f32) (harg4 : arg4.IsWhole)
    (hc0 : k0_cond1 i = 1#1) (hc1 : ¬k0_cond2 i = 1#1)
    (x0 : Vec F S1x512x1 .f32) (x1 : Vec F S1x1x4096 .f32)
    (r : Fin 512) (j : Fin 4096) (q : Fin 640) (hq : j.val = 512 * (i 1).val + q.val) :
    outWide c i arg2 harg2 arg3 harg3 arg4 harg4 hc0 hc1 x0 x1 (ix3 (0 : Fin 1) r j)
      = Scalar.select (bandBit (512 * (i 1).val + r.val) j.val)
          (FloatOps.mulf (x0 (ix3 (0 : Fin 1) r (0 : Fin 1))) (x1 (ix3 (0 : Fin 1) (0 : Fin 1) j)))
          (FloatOps.ofBits .f32 0x00000000#32) := by
  unfold outWide runWide
  dsimp only
  refine (View.read_writes_cons_unit_of_mem outView outView.junk _ _ _ (ix3 (0 : Fin 1) r j) (ix3 (0 : Fin 1) r q)
    (off_o_wide i) (fun a => ?_)).trans ?_
  · match a with
    | ⟨0, _⟩ => rfl
    | ⟨1, _⟩ => exact (Nat.zero_add _).symm
    | ⟨2, _⟩ => exact hq
  · rw [wideStrip_apply, harg2.readAt_unread, harg3.readAt_unread, hq]
    refine congrArg₂ (fun a b => Scalar.select _ (FloatOps.mulf (x0 a) (x1 b)) _) ?_ ?_
    · funext a
      apply Fin.ext
      match a with
      | ⟨0, _⟩ => rfl
      | ⟨1, _⟩ => show 0 + 1 * r.val = r.val; omega
      | ⟨2, _⟩ => rfl
    · funext a
      apply Fin.ext
      match a with
      | ⟨0, _⟩ => show (k0_off1 i) 0 + 1 * 0 = 0; rw [off_e_wide i]; rfl
      | ⟨1, _⟩ => show (k0_off1 i) 1 + 1 * 0 = 0; rw [off_e_wide i]; rfl
      | ⟨2, _⟩ => show (k0_off1 i) 2 + 1 * q.val = j.val; rw [off_e_wide i]; show 512 * (i 1).val + 1 * q.val = j.val; omega

/-- In the wide case, at a column outside the strip, the output block holds the zero word's value: only the zero
    fill wrote there. -/
theorem outWide_out (c : Dev nD) (i : grid0.Coords)
    (arg2 : Memref sig .tc .vmem S1x512x1 .f32) (harg2 : arg2.IsWhole)
    (arg3 : Memref sig .tc .vmem S1x1x4096 .f32) (harg3 : arg3.IsWhole)
    (arg4 : Memref sig .tc .vmem S1x512x4096 .f32) (harg4 : arg4.IsWhole)
    (hc0 : k0_cond1 i = 1#1) (hc1 : ¬k0_cond2 i = 1#1)
    (x0 : Vec F S1x512x1 .f32) (x1 : Vec F S1x1x4096 .f32)
    (y : S1x512x4096.Idx) (h : (y 2).val < 512 * (i 1).val ∨ 512 * (i 1).val + 640 ≤ (y 2).val) :
    outWide c i arg2 harg2 arg3 harg3 arg4 harg4 hc0 hc1 x0 x1 y = FloatOps.ofBits .f32 0x00000000#32 := by
  unfold outWide runWide
  dsimp only
  refine (View.read_writes_cons_unit_of_not_mem outView outView.junk _ _ _ y (off_o_wide i) (2 : Fin 3) ?_).trans ?_
  · exact h
  refine (View.read_writes_cons_unit_of_mem outView outView.junk _ _ _ y y rfl (fun a => ?_)).trans (zeroFill_apply y)
  match a with
  | ⟨0, _⟩ => exact (Nat.zero_add _).symm
  | ⟨1, _⟩ => exact (Nat.zero_add _).symm
  | ⟨2, _⟩ => exact (Nat.zero_add _).symm

/-- In the narrow case, at a column `j` inside the strip (`j = 512 * tile + q`), row `r` of the output block holds the
    band test of the global row and column selecting between `s`'s entry at row `r` times `e`'s entry at column `j`,
    and the zero word's value: the strip is the newest write there. -/
theorem outNarrow_in (c : Dev nD) (i : grid0.Coords)
    (arg2 : Memref sig .tc .vmem S1x512x1 .f32) (harg2 : arg2.IsWhole)
    (arg3 : Memref sig .tc .vmem S1x1x4096 .f32) (harg3 : arg3.IsWhole)
    (arg4 : Memref sig .tc .vmem S1x512x4096 .f32) (harg4 : arg4.IsWhole)
    (hc0 : ¬k0_cond1 i = 1#1) (hc1 : k0_cond2 i = 1#1)
    (x0 : Vec F S1x512x1 .f32) (x1 : Vec F S1x1x4096 .f32)
    (r : Fin 512) (j : Fin 4096) (q : Fin 512) (hq : j.val = 512 * (i 1).val + q.val) :
    outNarrow c i arg2 harg2 arg3 harg3 arg4 harg4 hc0 hc1 x0 x1 (ix3 (0 : Fin 1) r j)
      = Scalar.select (bandBit (512 * (i 1).val + r.val) j.val)
          (FloatOps.mulf (x0 (ix3 (0 : Fin 1) r (0 : Fin 1))) (x1 (ix3 (0 : Fin 1) (0 : Fin 1) j)))
          (FloatOps.ofBits .f32 0x00000000#32) := by
  unfold outNarrow runNarrow
  dsimp only
  refine (View.read_writes_cons_unit_of_mem outView outView.junk _ _ _ (ix3 (0 : Fin 1) r j) (ix3 (0 : Fin 1) r q)
    (off_o_narrow i) (fun a => ?_)).trans ?_
  · match a with
    | ⟨0, _⟩ => rfl
    | ⟨1, _⟩ => exact (Nat.zero_add _).symm
    | ⟨2, _⟩ => exact hq
  · rw [narrowStrip_apply, harg2.readAt_unread, harg3.readAt_unread, hq]
    refine congrArg₂ (fun a b => Scalar.select _ (FloatOps.mulf (x0 a) (x1 b)) _) ?_ ?_
    · funext a
      apply Fin.ext
      match a with
      | ⟨0, _⟩ => rfl
      | ⟨1, _⟩ => show 0 + 1 * r.val = r.val; omega
      | ⟨2, _⟩ => rfl
    · funext a
      apply Fin.ext
      match a with
      | ⟨0, _⟩ => show (k0_off3 i) 0 + 1 * 0 = 0; rw [off_e_narrow i]; rfl
      | ⟨1, _⟩ => show (k0_off3 i) 1 + 1 * 0 = 0; rw [off_e_narrow i]; rfl
      | ⟨2, _⟩ => show (k0_off3 i) 2 + 1 * q.val = j.val; rw [off_e_narrow i]; show 512 * (i 1).val + 1 * q.val = j.val; omega

/-- In the narrow case, at a column outside the strip, the output block holds the zero word's value: only the zero
    fill wrote there. -/
theorem outNarrow_out (c : Dev nD) (i : grid0.Coords)
    (arg2 : Memref sig .tc .vmem S1x512x1 .f32) (harg2 : arg2.IsWhole)
    (arg3 : Memref sig .tc .vmem S1x1x4096 .f32) (harg3 : arg3.IsWhole)
    (arg4 : Memref sig .tc .vmem S1x512x4096 .f32) (harg4 : arg4.IsWhole)
    (hc0 : ¬k0_cond1 i = 1#1) (hc1 : k0_cond2 i = 1#1)
    (x0 : Vec F S1x512x1 .f32) (x1 : Vec F S1x1x4096 .f32)
    (y : S1x512x4096.Idx) (h : (y 2).val < 512 * (i 1).val ∨ 512 * (i 1).val + 512 ≤ (y 2).val) :
    outNarrow c i arg2 harg2 arg3 harg3 arg4 harg4 hc0 hc1 x0 x1 y = FloatOps.ofBits .f32 0x00000000#32 := by
  unfold outNarrow runNarrow
  dsimp only
  refine (View.read_writes_cons_unit_of_not_mem outView outView.junk _ _ _ y (off_o_narrow i) (2 : Fin 3) ?_).trans ?_
  · exact h
  refine (View.read_writes_cons_unit_of_mem outView outView.junk _ _ _ y y rfl (fun a => ?_)).trans (zeroFill_apply y)
  match a with
  | ⟨0, _⟩ => exact (Nat.zero_add _).symm
  | ⟨1, _⟩ => exact (Nat.zero_add _).symm
  | ⟨2, _⟩ => exact (Nat.zero_add _).symm

end Cert.KernelIdeal.BandValue

end
-- ==== Proof.KI.Value.lean ====
/-
  The kernel's result array. Point `t` of the grid is batch `t / 8`, row tile `t % 8`; its output block is rows
  `512 * (t % 8) ..+ 512` of batch `t / 8`, all 4096 columns. What the point writes back is that block of the
  banded outer product of the two arguments:
    * at a column inside the point's strip the block holds the band test of the global row and column selecting
      between `s[b, row] * e[b, column]` and zero — the specification's entry;
    * at a column outside the strip it holds zero, and so does the specification, because there the column is
      either left of the tile's first row (so left of the diagonal) or at least 640 columns right of it (so more
      than 15 right of any of the tile's rows); on the last row tile the strip ends at the last column and only
      the first alternative occurs.
  The 128 blocks cover the array (an entry `(b, i, j)` lies in the block of point `8 * b + i / 512`), so the array
  ends as the banded outer product.
-/
import proofs.«106445_j68676527063502_2_alg».proof.Proof.KI.StripReads
import Idealize.ShloMosaic.Lib.StableHlo.Run
import Idealize.ShloMosaic.Lib.Pipeline.Value

set_option maxRecDepth 16384

noncomputable section

namespace Cert.KernelIdeal.BandValue

open Cert.KernelIdeal Cert.KernelIdeal.Gen Cert.KernelIdeal.Body Cert.Band Cert.LibBlockCasts
open Idealize.ShloMosaic Idealize.ShloMosaic.TcCoe Idealize.SL.Sem Idealize.ShloMosaic.StableHlo Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The staged arrays: the arguments reshaped -/

/-- The array the `s` window stages is the first argument reshaped to [16, 4096, 1]. -/
theorem V_s (c : Dev nD) : (V m c main_v0 : S16x4096x1.Idx → Elt F .f32)
    = shapeCast S16x4096x1 (m ((c.tc : Thread nD τ).loc main_arg0)) shapeCasts_S16x4096_S16x4096x1 := by
  dsimp only [Gen.V, Gen.hostOps0]
  after_results
  rfl

/-- The array the `e` window stages is the second argument reshaped to [16, 1, 4096]. -/
theorem V_e (c : Dev nD) : (V m c main_v1 : S16x1x4096.Idx → Elt F .f32)
    = shapeCast S16x1x4096 (m ((c.tc : Thread nD τ).loc main_arg1)) shapeCasts_S16x4096_S16x1x4096 := by
  dsimp only [Gen.V, Gen.hostOps0]
  after_results
  rfl

/-- Entry `(b, n, 0)` of the first reshape is the argument's entry `(b, n)`. -/
theorem reshape_s_apply (x : S16x4096.Idx → Elt F .f32) (b : Fin 16) (n : Fin 4096) :
    shapeCast S16x4096x1 x shapeCasts_S16x4096_S16x4096x1 (ix3 b n (0 : Fin 1)) = x (ix2 b n) :=
  shapeCast_apply x _ (ix3 b n (0 : Fin 1)) (ix2 b n) (by
    rw [Shape.rowMajor_val_two, Shape.rowMajor_val_three]
    show b.val * 4096 + n.val = (b.val * 4096 + n.val) * 1 + 0
    omega)

/-- Entry `(b, 0, j)` of the second reshape is the argument's entry `(b, j)`. -/
theorem reshape_e_apply (x : S16x4096.Idx → Elt F .f32) (b : Fin 16) (j : Fin 4096) :
    shapeCast S16x1x4096 x shapeCasts_S16x4096_S16x1x4096 (ix3 b (0 : Fin 1) j) = x (ix2 b j) :=
  shapeCast_apply x _ (ix3 b (0 : Fin 1) j) (ix2 b j) (by
    rw [Shape.rowMajor_val_two, Shape.rowMajor_val_three]
    show b.val * 4096 + j.val = (b.val * 1 + 0) * 4096 + j.val
    omega)

/-! ## The index maps over the grid -/

/-- The three windows' block indices and the row-tile coordinate at each of the 128 points: point `t` is batch
    `t / 8`, row tile `t % 8`. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0
    ∧ ((grid0.coords t) 1).val = t.val % 8 :=
  (by decide +kernel : ∀ t : Fin grid0.N, _)

/-! ## The input blocks at a point -/

/-- Row `r` of the `s` block at point `t` is `s[t / 8, 512 * (t % 8) + r]`. -/
theorem s_block (c : Dev nD) (t : Fin cfg0.N) (r : Fin 512) (hb : t.val / 8 < 16) (hn : 512 * (t.val % 8) + r.val < 4096) :
    iblk m c 0 t (ix3 (0 : Fin 1) r (0 : Fin 1))
      = m ((c.tc : Thread nD τ).loc main_arg0) (ix2 (⟨t.val / 8, hb⟩ : Fin 16) (⟨512 * (t.val % 8) + r.val, hn⟩ : Fin 4096)) := by
  obtain ⟨e0, e1, e2, -⟩ := idx_facts t
  show V m c main_v0 (((cfg0.win 0).blk t).view.emb (ix3 (0 : Fin 1) r (0 : Fin 1))) = _
  have hemb : ((cfg0.win 0).blk t).view.emb (ix3 (0 : Fin 1) r (0 : Fin 1))
      = ix3 (⟨t.val / 8, hb⟩ : Fin 16) (⟨512 * (t.val % 8) + r.val, hn⟩ : Fin 4096) (0 : Fin 1) := by
    funext a
    apply Fin.ext
    match a with
    | ⟨0, _⟩ => show win0_0.index t (0 : Fin 3) * 1 + 1 * 0 = t.val / 8; omega
    | ⟨1, _⟩ => show win0_0.index t (1 : Fin 3) * 512 + 1 * r.val = 512 * (t.val % 8) + r.val; omega
    | ⟨2, _⟩ => show win0_0.index t (2 : Fin 3) * 1 + 1 * 0 = 0; omega
  rw [hemb, V_s, reshape_s_apply]

/-- Column `j` of the `e` block at point `t` is `e[t / 8, j]`. -/
theorem e_block (c : Dev nD) (t : Fin cfg0.N) (j : Fin 4096) (hb : t.val / 8 < 16) :
    iblk m c 1 t (ix3 (0 : Fin 1) (0 : Fin 1) j)
      = m ((c.tc : Thread nD τ).loc main_arg1) (ix2 (⟨t.val / 8, hb⟩ : Fin 16) j) := by
  obtain ⟨-, -, -, e3, e4, e5, -⟩ := idx_facts t
  show V m c main_v1 (((cfg0.win 1).blk t).view.emb (ix3 (0 : Fin 1) (0 : Fin 1) j)) = _
  have hemb : ((cfg0.win 1).blk t).view.emb (ix3 (0 : Fin 1) (0 : Fin 1) j)
      = ix3 (⟨t.val / 8, hb⟩ : Fin 16) (0 : Fin 1) j := by
    funext a
    apply Fin.ext
    match a with
    | ⟨0, _⟩ => show win0_1.index t (0 : Fin 3) * 1 + 1 * 0 = t.val / 8; omega
    | ⟨1, _⟩ => show win0_1.index t (1 : Fin 3) * 1 + 1 * 0 = 0; omega
    | ⟨2, _⟩ => show win0_1.index t (2 : Fin 3) * 4096 + 1 * j.val = j.val; omega
  rw [hemb, V_e, reshape_e_apply]

/-! ## What a point writes back -/

/-- Point `t` writes back block `t` of the banded outer product of the two arguments. -/
theorem flushed_eq (c : Dev nD) (t : Fin cfg0.N) :
    (dats m 0 c).flushed 2 t = ((cfg0.win 2).blk t).view.read (Elt F)
      (band (m ((c.tc : Thread nD τ).loc main_arg0)) (m ((c.tc : Thread nD τ).loc main_arg1))) := by
  show (cfg0.win 2).cut (grid0.coords t) ((dats m 0 c).after 2 t) = _
  rw [after_o]
  have hN : t.val < 128 := lt_of_lt_of_eq t.isLt (show cfg0.N = 128 from N_0)
  have hb : t.val / 8 < 16 := by omega
  obtain ⟨-, -, -, -, -, -, e6, e7, e8, ec⟩ := idx_facts t
  funext y
  obtain ⟨r, j, rfl⟩ : ∃ (r : Fin 512) (j : Fin 4096), y = ix3 (0 : Fin 1) r j := ⟨y 1, y 2, eq_ix3_zero y⟩
  have hr := r.isLt
  have hj4 := j.isLt
  have hn : 512 * (t.val % 8) + r.val < 4096 := by omega
  have hemb : ((cfg0.win 2).blk t).view.emb (ix3 (0 : Fin 1) r j)
      = ix3 (⟨t.val / 8, hb⟩ : Fin 16) (⟨512 * (t.val % 8) + r.val, hn⟩ : Fin 4096) j := by
    funext a
    apply Fin.ext
    match a with
    | ⟨0, _⟩ => show win0_2.index t (0 : Fin 3) * 1 + 1 * 0 = t.val / 8; omega
    | ⟨1, _⟩ => show win0_2.index t (1 : Fin 3) * 512 + 1 * r.val = 512 * (t.val % 8) + r.val; omega
    | ⟨2, _⟩ => show win0_2.index t (2 : Fin 3) * 4096 + 1 * j.val = j.val; omega
  show outAt m c t (ix3 (0 : Fin 1) r j) = band _ _ (((cfg0.win 2).blk t).view.emb (ix3 (0 : Fin 1) r j))
  rw [hemb, band_apply]
  show outAt m c t (ix3 (0 : Fin 1) r j) = Scalar.select (bandBit (512 * (t.val % 8) + r.val) j.val) _ _
  by_cases h7 : t.val % 8 = 7
  · rw [outAt_narrow m c t h7]
    by_cases hj : 512 * (t.val % 8) ≤ j.val
    · rw [outNarrow_in c _ _ _ _ _ _ _ _ _ (iblk m c 0 t) (iblk m c 1 t) r j ⟨j.val - 512 * (t.val % 8), by omega⟩
        (by rw [ec]; show j.val = 512 * (t.val % 8) + (j.val - 512 * (t.val % 8)); omega),
        ec, s_block m c t r hb hn, e_block m c t j hb]
    · rw [outNarrow_out c _ _ _ _ _ _ _ _ _ _ _ (ix3 (0 : Fin 1) r j)
        (Or.inl (by rw [ec]; show j.val < 512 * (t.val % 8); omega)),
        bandBit_off hn j.isLt (Or.inl (by omega)), select_zero]
  · rw [outAt_wide m c t h7]
    by_cases hj : 512 * (t.val % 8) ≤ j.val ∧ j.val < 512 * (t.val % 8) + 640
    · rw [outWide_in c _ _ _ _ _ _ _ _ _ (iblk m c 0 t) (iblk m c 1 t) r j ⟨j.val - 512 * (t.val % 8), by omega⟩
        (by rw [ec]; show j.val = 512 * (t.val % 8) + (j.val - 512 * (t.val % 8)); omega),
        ec, s_block m c t r hb hn, e_block m c t j hb]
    · rw [outWide_out c _ _ _ _ _ _ _ _ _ _ _ (ix3 (0 : Fin 1) r j)
        (by rw [ec]; show j.val < 512 * (t.val % 8) ∨ 512 * (t.val % 8) + 640 ≤ j.val; omega),
        bandBit_off hn j.isLt (by omega), select_zero]

/-! ## The blocks cover the array -/

/-- An index of the array is in point `t`'s block iff each coordinate is in the block's range on its axis. -/
theorem mem_blk (t : Fin cfg0.N) (i : S16x4096x4096.Idx) :
    i ∈ ((cfg0.win 2).blk t).view.set ↔ ∀ a : Fin 3, win0_2.index t a * S1x512x4096.size a ≤ (i a).val
      ∧ (i a).val < win0_2.index t a * S1x512x4096.size a + S1x512x4096.size a := by
  show i ∈ ((View.whole main_v2).slice (win0_2.rect t)).set ↔ _
  rw [View.set_slice_whole, Rect.mem_set_unit]
  exact Iff.rfl

/-- Entry `(b, i, j)` lies in the block of point `8 * b + i / 512`, which is written back. -/
theorem cover (i : S16x4096x4096.Idx) :
    ∃ t : Fin cfg0.N, (cfg0.win 2).flush t = true ∧ i ∈ ((cfg0.win 2).blk t).view.set := by
  have h0 : (i 0).val < 16 := (i 0).isLt
  have h1 : (i 1).val < 4096 := (i 1).isLt
  have h2 : (i 2).val < 4096 := (i 2).isLt
  obtain ⟨t, ht⟩ : ∃ t : Fin cfg0.N, t.val = 8 * (i 0).val + (i 1).val / 512 :=
    ⟨⟨8 * (i 0).val + (i 1).val / 512, lt_of_lt_of_eq (by omega : _ < 128) N_0.symm⟩, rfl⟩
  obtain ⟨-, -, -, -, -, -, e6, e7, e8, -⟩ := idx_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 4096 ≤ (i 2).val ∧ (i 2).val < win0_2.index t (2 : Fin 3) * 4096 + 4096
    omega

/-! ## The array after the run, and the run -/

/-- After the run the output array is the banded outer product of the two arguments. -/
theorem final (c : Dev nD) : (dats m 0 c).arrAt 2 cfg0.N
    = band (m ((c.tc : Thread nD τ).loc main_arg0)) (m ((c.tc : Thread nD τ).loc main_arg1)) :=
  (dats m 0 c).arrAt_eq_of_cover 2 _ (fun t _ => flushed_eq m c t) cover

/-- The program runs to its end with its result at the banded outer product of its arguments and its arguments
    unchanged. -/
theorem run : θ_run defs (onTc (τ := τ) (main (F := F))) ⟨m, fun _ => 0, ρ⟩ fun r => ∀ c : Dev nD,
      r.2.mem ((c.tc : Thread nD τ).loc main_v2)
        = band (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.BandValue

end
-- ==== Proof.RefBand.lean ====
/-
  The reference computes the banded outer product. Read at an index `(b, i, j)`, its 24 operations compose to:
  the band test of `j - i` (column iota minus row iota, on 32-bit words, compared signed with 0 and with 15),
  selecting between the product `s[b, i] * e[b, j]` (the two inputs broadcast along the missing axis) and the
  broadcast zero word. That is the specification's function, bit for bit and factor for factor.
-/
import proofs.«106445_j68676527063502_2_alg».proof.Proof.Gen.ReferenceIdeal.Read
import proofs.«106445_j68676527063502_2_alg».proof.Proof.BandSpec

noncomputable section

namespace Cert.ReferenceIdeal.RefValue

open Cert.ReferenceIdeal Cert.ReferenceIdeal.Read Idealize.ShloMosaic Idealize.ShloMosaic.ValueIdx

variable {F : FTy → Type} [FloatOps F]

/-- The reference's result, as a function of its two arguments, is the banded outer product. -/
theorem ref_is_band (x0 x1 : (⟨S16x4096, .f32⟩ : BufTy).Contents (Elt F)) :
    val_main_v18 (F := F) x0 x1 = Cert.Band.band (F := F) x0 x1 := by
  funext i
  have e0 : idx_main_v0 (idx_main_v2 i) = ix2 (n0 := 16) (n1 := 4096) (i 0) (i 1) :=
    funext fun a => Fin.ext (by match a with | ⟨0, _⟩ => rfl | ⟨1, _⟩ => rfl)
  have e1 : idx_main_v1 (idx_main_v3 i) = ix2 (n0 := 16) (n1 := 4096) (i 0) (i 2) :=
    funext fun a => Fin.ext (by match a with | ⟨0, _⟩ => rfl | ⟨1, _⟩ => rfl)
  rw [val_main_v18_apply, val_main_call0_v0_apply, val_main_v17_apply, val_main_v16_apply, val_main_v13_apply,
    val_main_v15_apply, val_main_v11_apply, val_main_v9_apply, val_main_v8_apply, val_main_v7_apply, val_main_v10_apply,
    val_main_v6_apply, val_main_v5_apply, val_main_v12_apply, val_main_c_apply, val_main_v14_apply, val_main_c_0_apply,
    val_main_v4_apply, val_main_v2_apply, val_main_v0_apply, val_main_v3_apply, val_main_v1_apply,
    val_main_call0_v1_apply, val_main_cst_apply, e0, e1]
  rfl

end Cert.ReferenceIdeal.RefValue

end
-- ==== Proof.lean ====
/-
  The banded outer product `out[b, i, j] = s[b, i] * e[b, j]` for `0 <= j - i <= 15`, zero elsewhere, over
  `s, e : [16, 4096]`: a kernel that fills each 512-row output tile with zeros and then overwrites only a column
  strip starting at the tile's first row (640 columns wide, 512 on the last tile), against the reference that
  masks the full outer product.

  The three frames. The kernel's body has two branches on the row tile; they are decided over the grid (the
  first holds exactly off the last row tile, the second exactly on it), the body is run once per case, and the
  pipeline library's frame run is instantiated with what each case leaves in the output block — for the kernel as
  printed and for its idealization alike. The reference has no kernel; its frame is its run with the result
  dropped.

  The idealization rewrote no operation, so `preserves` has nothing to state.

  The value claim. Read at an index, the reference is the band test of the column and row numbers selecting
  between the product and zero. The kernel's strip holds the same test of the same global row and column (the
  tile's offset added to both iotas) selecting between the same product and zero; outside the strip the kernel
  holds the zero fill and the band test is off, since a column outside the strip is left of the tile's first row or
  at least 640 columns right of it. Both sides use one multiplication and one select per entry and the same zero
  word, so no algebra on the extended reals — and no finiteness of the inputs — is needed.
-/
import proofs.«106445_j68676527063502_2_alg».proof.Defs
import proofs.«106445_j68676527063502_2_alg».proof.Proof.Gen.Kernel
import proofs.«106445_j68676527063502_2_alg».proof.Proof.Gen.KernelIdeal
import proofs.«106445_j68676527063502_2_alg».proof.Proof.Gen.ReferenceIdeal
import proofs.«106445_j68676527063502_2_alg».proof.Proof.Gen.ReferenceIdeal.Run
import proofs.«106445_j68676527063502_2_alg».proof.Proof.Gen.ReferenceIdeal.Read
import proofs.«106445_j68676527063502_2_alg».proof.Proof.Gen.Pre_finite_inputs
import proofs.«106445_j68676527063502_2_alg».proof.Proof.K.Frame
import proofs.«106445_j68676527063502_2_alg».proof.Proof.KI.Value
import proofs.«106445_j68676527063502_2_alg».proof.Proof.RefBand

noncomputable section

namespace Cert.Proof

open Idealize.ShloMosaic Idealize.ShloMosaic.TcCoe Idealize.SL.Sem

/-- The kernel as printed runs to its end and leaves its arguments unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the banded outer product of their (agreeing) arguments. -/
theorem algebraic : Cert.algebraic_KernelIdeal_ReferenceIdeal := by
  intro m ρ m' ρ' _ hagree
  refine ⟨fun c => Cert.Band.band (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.BandValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v18_eq _ _).trans (Cert.ReferenceIdeal.RefValue.ref_is_band _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
